-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x256 .f32) (main_arg1 : IVec S800000 32) (main_arg2 : IVec S800000 32) (main_arg3 : FVec F S256x64 .f32) (main_arg4 : FVec F S64 .f32) (main_arg5 : FVec F S64x16 .f32) (main_arg6 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S_ : Shape := ⟨0, ![]⟩
abbrev S50000 : Shape := ⟨1, ![50000]⟩
abbrev S800000x1 : Shape := ⟨2, ![800000, 1]⟩
abbrev S50000x64 : Shape := ⟨2, ![50000, 64]⟩
abbrev S2000x256 : Shape := ⟨2, ![2000, 256]⟩
abbrev S2000x64 : Shape := ⟨2, ![2000, 64]⟩
abbrev S800000x64 : Shape := ⟨2, ![800000, 64]⟩
abbrev S50000x1 : Shape := ⟨2, ![50000, 1]⟩
abbrev S1x64 : Shape := ⟨2, ![1, 64]⟩
abbrev S50000x16 : Shape := ⟨2, ![50000, 16]⟩
abbrev S2000x1 : Shape := ⟨2, ![2000, 1]⟩
abbrev S2000x16 : Shape := ⟨2, ![2000, 16]⟩
abbrev S800000x16 : Shape := ⟨2, ![800000, 16]⟩
abbrev S1x16 : Shape := ⟨2, ![1, 16]⟩

abbrev nBuf : Space → Nat
  | .hbm => 82
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000x1, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x1, .f32⟩
  | .hbm, ⟨52, _⟩ => ⟨S1x64, .f32⟩
  | .hbm, ⟨53, _⟩ => ⟨S50000x16, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x16, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000, .f32⟩
  | .hbm, ⟨72, _⟩ => ⟨S800000x1, .f32⟩
  | .hbm, ⟨73, _⟩ => ⟨S800000x16, .f32⟩
  | .hbm, ⟨74, _⟩ => ⟨S800000x16, .f32⟩
  | .hbm, ⟨75, _⟩ => ⟨S_, .f32⟩
  | .hbm, ⟨76, _⟩ => ⟨S50000x16, .f32⟩
  | .hbm, ⟨77, _⟩ => ⟨S800000x1, .i32⟩
  | .hbm, ⟨78, _⟩ => ⟨S50000x16, .f32⟩
  | .hbm, ⟨79, _⟩ => ⟨S50000x1, .f32⟩
  | .hbm, ⟨80, _⟩ => ⟨S1x16, .f32⟩
  | .hbm, ⟨81, _⟩ => ⟨S50000x16, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x1, .f32⟩
  | .local _ .vmem, ⟨8, _⟩ => ⟨S2000x1, .f32⟩
  | .local _ .vmem, ⟨9, _⟩ => ⟨S1x64, .f32⟩
  | .local _ .vmem, ⟨10, _⟩ => ⟨S64x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S2000x1, .f32⟩
  | .local _ .vmem, ⟨16, _⟩ => ⟨S2000x1, .f32⟩
  | .local _ .vmem, ⟨17, _⟩ => ⟨S1x16, .f32⟩
  | .local _ .vmem, ⟨18, _⟩ => ⟨S2000x16, .f32⟩
  | .local _ .vmem, ⟨19, _⟩ => ⟨S2000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_c_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000_S50000x1 : S50000.ShapeCasts S50000x1
  shapeCasts_S64_S1x64 : S64.ShapeCasts S1x64
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  shapeCasts_S16_S1x16 : S16.ShapeCasts S1x16
  shapeCasts_S2000x16_S2000x16 : S2000x16.ShapeCasts S2000x16
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  scatter_S50000_S800000x1_S800000_n_0_0_1_wf : ScatterDims.WF S50000 S800000x1 S800000 [] [0] [0] 1
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  scatter_S50000x64_S800000x1_S800000x64_1_0_0_1_wf : ScatterDims.WF S50000x64 S800000x1 S800000x64 [1] [0] [0] 1
  dot_S2000x64_S64x16_S2000x16_1_0_0_1_n_n_wf : DotDims.WF S2000x64 S64x16 S2000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x16.size a ≤ S50000x16.size a
  hwx1_4 : ∀ i : grid1.Coords, EltTy.bits .f32 = 32 ∨ (Rect.block (s := S50000x16) S2000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S50000x16.size a
  hwx2_0 : ∀ i : grid2.Coords, EltTy.bits .f32 = 32 ∨ (Rect.block (s := S50000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x16.size a ≤ S50000x16.size a
  hwx2_3 : ∀ i : grid2.Coords, EltTy.bits .f32 = 32 ∨ (Rect.block (s := S50000x16) S2000x16.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S2000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v56) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S2000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S_ : Shape := ⟨0, ![]⟩
abbrev S50000 : Shape := ⟨1, ![50000]⟩
abbrev S800000x1 : Shape := ⟨2, ![800000, 1]⟩
abbrev S50000x64 : Shape := ⟨2, ![50000, 64]⟩
abbrev S800000x64 : Shape := ⟨2, ![800000, 64]⟩
abbrev S50000x1 : Shape := ⟨2, ![50000, 1]⟩
abbrev S1x64 : Shape := ⟨2, ![1, 64]⟩
abbrev S50000x16 : Shape := ⟨2, ![50000, 16]⟩
abbrev S800000x16 : Shape := ⟨2, ![800000, 16]⟩
abbrev S1x16 : Shape := ⟨2, ![1, 16]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000x1, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x1, .f32⟩
  | .hbm, ⟨52, _⟩ => ⟨S50000x64, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000x64, .f32⟩
  | .hbm, ⟨59, _⟩ => ⟨S50000x64, .f32⟩
  | .hbm, ⟨60, _⟩ => ⟨S50000x16, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x16, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000, .f32⟩
  | .hbm, ⟨79, _⟩ => ⟨S800000x1, .f32⟩
  | .hbm, ⟨80, _⟩ => ⟨S800000x16, .f32⟩
  | .hbm, ⟨81, _⟩ => ⟨S800000x16, .f32⟩
  | .hbm, ⟨82, _⟩ => ⟨S_, .f32⟩
  | .hbm, ⟨83, _⟩ => ⟨S50000x16, .f32⟩
  | .hbm, ⟨84, _⟩ => ⟨S800000x1, .i32⟩
  | .hbm, ⟨85, _⟩ => ⟨S50000x16, .f32⟩
  | .hbm, ⟨86, _⟩ => ⟨S50000x1, .f32⟩
  | .hbm, ⟨87, _⟩ => ⟨S50000x16, .f32⟩
  | .hbm, ⟨88, _⟩ => ⟨S50000x16, .f32⟩
  | .hbm, ⟨89, _⟩ => ⟨S1x16, .f32⟩
  | .hbm, ⟨90, _⟩ => ⟨S50000x16, .f32⟩
  | .hbm, ⟨91, _⟩ => ⟨S50000x16, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  scatter_S50000x64_S800000x1_S800000x64_1_0_0_1_wf : ScatterDims.WF S50000x64 S800000x1 S800000x64 [1] [0] [0] 1
  dot_S50000x64_S64x16_S50000x16_1_0_0_1_n_n_wf : DotDims.WF S50000x64 S64x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

class Facts : Prop extends Facts₀ where

variable [Facts]
-- ==== Proof.NamedRun.lean ====
/-
  The device program's run with its result named.

  The program is six segments: host operations, the first dense step, host operations, the middle dense step, host
  operations, the last dense step. Every weakly fair execution runs them in order and ends with every unscoped buffer
  at the contents the segments leave, `W6`; in particular the result buffer ends at `W6` read at the result, and each of
  the seven arguments as launched.
-/
import proofs.«102962_j19619410608308_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at what the six segments leave
    in it and the argument arrays as launched. -/
theorem run_named : θ_run defs (onTc (τ := τ) (main (F := F))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.NamedRun

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.GraphConvSpec.lean ====
/-
  The three dense steps of a two-layer graph convolution, index by index on the extended reals.

  With `A` an aggregated feature array, `ν` the per-node degree norm written as a column and `β` a bias written as a row:
    * `matProd x w`      — the matrix product  (x w)(p, q) = Σ k, x(p, k) · w(k, q);
    * `scaleShift A ν β` — each row scaled by its node's norm, then shifted by the bias:  A(p, q) · ν(p) + β(q);
    * `hidden A ν β`     — the same followed by the rectifier  max(·, 0).
  The first layer is  hidden(agg(x W1)) , the second  scaleShift(agg(hidden(..) W2)) .
  Sums and products of extended reals are commutative and associative, so a matrix product does not depend on how its
  rows are tiled or in which order a row's sum is taken; no finiteness of the entries is used anywhere below.
-/
import Idealize.ShloMosaic.PureOps.Ideal
import Idealize.ShloMosaic.Lib.ValueIdx

noncomputable section

open scoped BigOperators

namespace Cert.GraphConvSpec

open Idealize.ShloMosaic Idealize.ShloMosaic.ValueIdx

/-- The row coordinate of a rank-2 index, at its literal extent. -/
abbrev rowOf {n0 n1 : ℕ} (i : (⟨2, ![n0, n1]⟩ : Shape).Idx) : Fin n0 := ⟨(i 0).val, idx2_lt0 i⟩
/-- The column coordinate of a rank-2 index, at its literal extent. -/
abbrev colOf {n0 n1 : ℕ} (i : (⟨2, ![n0, n1]⟩ : Shape).Idx) : Fin n1 := ⟨(i 1).val, idx2_lt1 i⟩

/-- A vector of per-row values read as an `[M, 1]` column. -/
def asColumn {M : ℕ} {α : Type} (n : (⟨1, ![M]⟩ : Shape).Idx → α) : (⟨2, ![M, 1]⟩ : Shape).Idx → α :=
  fun i => n (ix1 (rowOf i))
theorem asColumn_apply {M : ℕ} {α : Type} (n : (⟨1, ![M]⟩ : Shape).Idx → α) (p : Fin M) (u : Fin 1) :
    asColumn n (ix2 p u) = n (ix1 p) := rfl

/-- A vector of per-column values read as a `[1, K]` row. -/
def asRow {K : ℕ} {α : Type} (b : (⟨1, ![K]⟩ : Shape).Idx → α) : (⟨2, ![1, K]⟩ : Shape).Idx → α :=
  fun i => b (ix1 (colOf i))
theorem asRow_apply {K : ℕ} {α : Type} (b : (⟨1, ![K]⟩ : Shape).Idx → α) (u : Fin 1) (q : Fin K) :
    asRow b (ix2 u q) = b (ix1 q) := rfl

/-- The matrix product of an `[M, K]` array and a `[K, P]` array. -/
def matProd {M K P : ℕ} (x : (⟨2, ![M, K]⟩ : Shape).Idx → EReal) (w : (⟨2, ![K, P]⟩ : Shape).Idx → EReal) :
    (⟨2, ![M, P]⟩ : Shape).Idx → EReal :=
  fun i => ∑ k : Fin K, x (ix2 (rowOf i) k) * w (ix2 k (colOf i))

theorem matProd_apply {M K P : ℕ} (x : (⟨2, ![M, K]⟩ : Shape).Idx → EReal) (w : (⟨2, ![K, P]⟩ : Shape).Idx → EReal)
    (p : Fin M) (q : Fin P) : matProd x w (ix2 p q) = ∑ k : Fin K, x (ix2 p k) * w (ix2 k q) := rfl

/-- Each row scaled by its entry of the column `ν`, then shifted by the row `β`. -/
def scaleShift {M K : ℕ} (A : (⟨2, ![M, K]⟩ : Shape).Idx → EReal) (ν : (⟨2, ![M, 1]⟩ : Shape).Idx → EReal)
    (β : (⟨2, ![1, K]⟩ : Shape).Idx → EReal) : (⟨2, ![M, K]⟩ : Shape).Idx → EReal :=
  fun i => A i * ν (ix2 (rowOf i) (0 : Fin 1)) + β (ix2 (0 : Fin 1) (colOf i))

theorem scaleShift_apply {M K : ℕ} (A : (⟨2, ![M, K]⟩ : Shape).Idx → EReal) (ν : (⟨2, ![M, 1]⟩ : Shape).Idx → EReal)
    (β : (⟨2, ![1, K]⟩ : Shape).Idx → EReal) (p : Fin M) (q : Fin K) :
    scaleShift A ν β (ix2 p q) = A (ix2 p q) * ν (ix2 p (0 : Fin 1)) + β (ix2 (0 : Fin 1) q) := rfl

/-- The hidden activation: scaled, shifted, then the larger of the result and the float zero. -/
def hidden {M K : ℕ} (A : (⟨2, ![M, K]⟩ : Shape).Idx → EReal) (ν : (⟨2, ![M, 1]⟩ : Shape).Idx → EReal)
    (β : (⟨2, ![1, K]⟩ : Shape).Idx → EReal) : (⟨2, ![M, K]⟩ : Shape).Idx → EReal :=
  fun i => max (scaleShift A ν β i) (Ideal.ofBits .f32 0x00000000#32)

theorem hidden_apply {M K : ℕ} (A : (⟨2, ![M, K]⟩ : Shape).Idx → EReal) (ν : (⟨2, ![M, 1]⟩ : Shape).Idx → EReal)
    (β : (⟨2, ![1, K]⟩ : Shape).Idx → EReal) (p : Fin M) (q : Fin K) :
    hidden A ν β (ix2 p q)
      = max (A (ix2 p q) * ν (ix2 p (0 : Fin 1)) + β (ix2 (0 : Fin 1) q)) (Ideal.ofBits .f32 0x00000000#32) := rfl

end Cert.GraphConvSpec

end
-- ==== Proof.FirstProjection.lean ====
/-
  The first dense step on the device: the feature array times the first weight array, 2000 rows at a time.

  Grid point `t` (of 25) reads rows 2000·t … 2000·t + 1999 of the [50000, 256] feature array and the whole [256, 64]
  weight array, and writes the product of the two into rows 2000·t … of the [50000, 64] result. Row `r` of the
  result is therefore written by point r / 2000, and its entry (r, q) is Σ k, x(r, k) · w(k, q): the 25 row tiles of
  a matrix product are the matrix product. Stated for any contents `V` of the buffers at the moment the step starts.
-/
import proofs.«102962_j19619410608308_1_alg».proof.Proof.Gen.KernelIdeal.Frame
import proofs.«102962_j19619410608308_1_alg».proof.Proof.LibPlainDot
import proofs.«102962_j19619410608308_1_alg».proof.Proof.GraphConvSpec
import Idealize.ShloMosaic.Lib.Pipeline.Value
import Idealize.ShloMosaic.Lib.ValueIdx
import Idealize.ShloMosaic.PureOps.Ideal.Laws

noncomputable section

open scoped BigOperators

namespace Cert.KernelIdeal.FirstProjection

open Cert.KernelIdeal Cert.KernelIdeal.Gen Idealize.ShloMosaic Idealize.ShloMosaic.TcCoe Idealize.SL.Sem
open Idealize.ShloMosaic.ValueIdx Cert.GraphConvSpec
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- In the tile's product the left index keeps the output's row. -/
theorem left_row (j : S2000x64.Idx) (q : dot_S2000x256_S256x64_S2000x64_1_0_0_1_n_n.contr.Idx) :
    (dot_S2000x256_S256x64_S2000x64_1_0_0_1_n_n.lhsIdx j q 0).val = (j 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl

/-- In the tile's product the right index keeps the output's column. -/
theorem right_col (j : S2000x64.Idx) (q : dot_S2000x256_S256x64_S2000x64_1_0_0_1_n_n.contr.Idx) :
    (dot_S2000x256_S256x64_S2000x64_1_0_0_1_n_n.rhsIdx j q 1).val = (j 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- What one point computes, at (p, q) of its tile: the sum over the 256 features of the tile's row entry times the
    weight (a change of float format is the identity on the extended reals). -/
theorem tile_product (x0 : Vec Ideal S2000x256 .f32) (x1 : Vec Ideal S256x64 .f32) (p : Fin 2000) (q : Fin 64) :
    k0_pay1 x0 x1 (ix2 p q) = ∑ k : Fin 256, x0 (ix2 p k) * x1 (ix2 k q) := by
  unfold k0_pay1
  exact Cert.LibPlainDot.matmul_zero_apply dot_S2000x256_S256x64_S2000x64_1_0_0_1_n_n rfl rfl left_row right_col rfl rfl none _ _ p q

/-- The printed index maps over the grid: at point `t` the feature window and the result window sit at row block `t`
    (column block 0), the weight window at block (0, 0). -/
theorem tile_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows 2000·t … of the product of the feature array and the weight array as the
    step finds them. -/
theorem flushed_tile (c : Dev nD) (t : Fin cfg0.N) :
    (dat0 V c).flushed 2 t
      = ((cfg0.win 2).blk t).view.read (Elt Ideal) (matProd (V c main_arg0) (V c main_arg3)) := by
  show (cfg0.win 2).cut (grid0.coords t) ((dat0 V c).after 2 t) = _
  rw [after0_2]
  unfold out0_2
  rw [View.canon_unit_zero zeros2]
  simp only [View.ld_unit_zero (S := S2000x256) zeros2, View.ld_unit_zero (S := S256x64) zeros2]
  obtain ⟨e00, e01, e10, e11, e20, e21⟩ := tile_positions t
  have hN : cfg0.N = 25 := N_0
  have ht : t.val < 25 := by have := t.isLt; omega
  funext j
  obtain ⟨p, q, rfl⟩ : ∃ (p : Fin 2000) (q : Fin 64), j = ix2 p q := ⟨j 0, j 1, eq_ix2 j⟩
  have hp : p.val < 2000 := p.isLt
  have hr : t.val * 2000 + p.val < 50000 := by omega
  have eo : ((cfg0.win 2).blk t).view.emb (ix2 p q) = ix2 (⟨t.val * 2000 + p.val, hr⟩ : Fin 50000) q := by
    funext a; apply Fin.ext
    match a with
    | ⟨0, _⟩ => show win0_2.index t (0 : Fin 2) * 2000 + 1 * p.val = t.val * 2000 + p.val; rw [e20]; omega
    | ⟨1, _⟩ => show win0_2.index t (1 : Fin 2) * 64 + 1 * q.val = q.val; rw [e21]; omega
  refine (tile_product _ _ p q).trans ?_
  show _ = matProd (V c main_arg0) (V c main_arg3) (((cfg0.win 2).blk t).view.emb (ix2 p q))
  rw [eo, matProd_apply]
  refine Finset.sum_congr rfl fun k _ => ?_
  have ex : ((cfg0.win 0).blk t).view.emb (ix2 p k) = ix2 (⟨t.val * 2000 + p.val, hr⟩ : Fin 50000) k := by
    funext a; apply Fin.ext
    match a with
    | ⟨0, _⟩ => show win0_0.index t (0 : Fin 2) * 2000 + 1 * p.val = t.val * 2000 + p.val; rw [e00]; omega
    | ⟨1, _⟩ => show win0_0.index t (1 : Fin 2) * 256 + 1 * k.val = k.val; rw [e01]; omega
  have ew : ((cfg0.win 1).blk t).view.emb (ix2 k q) = ix2 k q := by
    funext a; apply Fin.ext
    match a with
    | ⟨0, _⟩ => show win0_1.index t (0 : Fin 2) * 256 + 1 * k.val = k.val; rw [e10]; omega
    | ⟨1, _⟩ => show win0_1.index t (1 : Fin 2) * 64 + 1 * q.val = q.val; rw [e11]; omega
  rw [show iblk0 V c 0 t (ix2 p k) = V c main_arg0 (ix2 (⟨t.val * 2000 + p.val, hr⟩ : Fin 50000) k) from congrArg (V c main_arg0) ex,
    show iblk0 V c 1 t (ix2 k q) = V c main_arg3 (ix2 k q) from congrArg (V c main_arg3) ew]

/-- An index of the result array is in point `t`'s block iff each coordinate is in the block's range on its axis. -/
theorem mem_tile (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v13).slice (win0_2.rect t)).set ↔ _
  rw [View.set_slice_whole, Rect.mem_set_unit]
  exact Iff.rfl

/-- Every index of the result array is written back by some point: row `r` by point r / 2000. -/
theorem covered (i : S50000x64.Idx) :
    ∃ t : Fin cfg0.N, (cfg0.win 2).flush t = true ∧ i ∈ ((cfg0.win 2).blk t).view.set := by
  have hN : cfg0.N = 25 := N_0
  have hi0 : (i 0).val < 50000 := (i 0).isLt
  have hi1 : (i 1).val < 64 := (i 1).isLt
  obtain ⟨t, ht⟩ : ∃ t : Fin cfg0.N, t.val = (i 0).val / 2000 := ⟨⟨(i 0).val / 2000, by omega⟩, rfl⟩
  obtain ⟨-, -, -, -, e20, e21⟩ := tile_positions t
  refine ⟨t, flush0_2 t, ?_⟩
  rw [mem_tile]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the step the result array is the matrix product of the feature array and the weight array as the step
    found them. -/
theorem result_array (c : Dev nD) :
    (dat0 V c).arrAt 2 cfg0.N = matProd (V c main_arg0) (V c main_arg3) :=
  (dat0 V c).arrAt_eq_of_cover 2 (matProd (V c main_arg0) (V c main_arg3)) (fun t _ => flushed_tile V c t) covered

end Cert.KernelIdeal.FirstProjection

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.HiddenLayer.lean ====
/-
  The middle dense step on the device: the hidden activation and the second projection fused, 2000 rows at a time.

  Grid point `t` (of 25) reads rows 2000·t … of the [50000, 64] aggregated array and of the [50000, 1] norm column,
  the whole [1, 64] bias row and the whole [64, 16] weight array; it forms  h(r, k) = max(A(r, k) · ν(r) + β(k), 0)
  for its rows and writes  Σ k, h(r, k) · w(k, q)  into the same rows of the [50000, 16] result. A row of the
  activation depends only on the same row of `A` and `ν`, so the 25 row tiles of  h w  are the product of the whole
  activation with `w`. Stated for any contents `V` of the buffers at the moment the step starts.
-/
import proofs.«102962_j19619410608308_1_alg».proof.Proof.Gen.KernelIdeal.Frame
import proofs.«102962_j19619410608308_1_alg».proof.Proof.LibPlainDot
import proofs.«102962_j19619410608308_1_alg».proof.Proof.LibColumn
import proofs.«102962_j19619410608308_1_alg».proof.Proof.GraphConvSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HiddenLayer

open Cert.KernelIdeal Cert.KernelIdeal.Gen Idealize.ShloMosaic Idealize.ShloMosaic.TcCoe Idealize.SL.Sem
open Idealize.ShloMosaic.ValueIdx Cert.GraphConvSpec
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- In the tile's product the left index keeps the output's row. -/
theorem left_row (j : S2000x16.Idx) (q : dot_S2000x64_S64x16_S2000x16_1_0_0_1_n_n.contr.Idx) :
    (dot_S2000x64_S64x16_S2000x16_1_0_0_1_n_n.lhsIdx j q 0).val = (j 0).val := by
  unfold DotDims.lhsIdx
  rw [dif_neg (show ¬(0 : Fin S2000x64.rank) ∈ dot_S2000x64_S64x16_S2000x16_1_0_0_1_n_n.lhsBatch by decide), dif_pos (show (0 : Fin S2000x64.rank) ∈ dot_S2000x64_S64x16_S2000x16_1_0_0_1_n_n.lhsNonContracting by decide)]
  rfl

/-- In the tile's product the right index keeps the output's column. -/
theorem right_col (j : S2000x16.Idx) (q : dot_S2000x64_S64x16_S2000x16_1_0_0_1_n_n.contr.Idx) :
    (dot_S2000x64_S64x16_S2000x16_1_0_0_1_n_n.rhsIdx j q 1).val = (j 1).val := by
  unfold DotDims.rhsIdx
  rw [dif_neg (show ¬(1 : Fin S64x16.rank) ∈ dot_S2000x64_S64x16_S2000x16_1_0_0_1_n_n.rhsBatch by decide), dif_pos (show (1 : Fin S64x16.rank) ∈ dot_S2000x64_S64x16_S2000x16_1_0_0_1_n_n.rhsNonContracting by decide)]
  rfl

/-- What one point computes, at (p, q) of its tile: the sum over the 64 hidden features of the rectified, scaled and
    shifted entry of the tile's row times the weight. -/
theorem tile_value (x0 : Vec Ideal S2000x64 .f32) (x1 : Vec Ideal S2000x1 .f32) (x2 : Vec Ideal S1x64 .f32)
    (x3 : Vec Ideal S64x16 .f32) (p : Fin 2000) (q : Fin 16) :
    k1_pay1 x0 x1 x2 x3 (ix2 p q)
      = ∑ k : Fin 64, max (x0 (ix2 p k) * x1 (ix2 p (0 : Fin 1)) + x2 (ix2 (0 : Fin 1) k)) (Ideal.ofBits .f32 0x00000000#32)
          * x3 (ix2 k q) := by
  unfold k1_pay1
  refine (Cert.LibPlainDot.matmul_zero_apply dot_S2000x64_S64x16_S2000x16_1_0_0_1_n_n rfl rfl left_row right_col rfl rfl none _ _ p q).trans ?_
  refine Finset.sum_congr rfl fun k _ => ?_
  simp only [shapeCast_self, truncf_apply, maximumf_apply, addf_apply, mulf_apply, broadcast_apply]
  rw [Cert.LibColumn.broadcastTo_a1_ab_apply, broadcastTo_1b_ab_apply]
  rfl

/-- The printed index maps over the grid: at point `t` the aggregated window, the norm window and the result window
    sit at row block `t` (column block 0), the bias window and the weight window at block (0, 0). -/
theorem tile_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is rows 2000·t … of the product of the whole hidden activation with the weight array. -/
theorem flushed_tile (c : Dev nD) (t : Fin cfg1.N) :
    (dat1 V c).flushed 4 t
      = ((cfg1.win 4).blk t).view.read (Elt Ideal)
          (matProd (hidden (V c main_v33) (V c main_v34) (V c main_v35)) (V c main_arg5)) := by
  show (cfg1.win 4).cut (grid1.coords t) ((dat1 V c).after 4 t) = _
  rw [after1_4]
  unfold out1_4
  rw [View.canon_unit_zero zeros2]
  simp only [View.ld_unit_zero (S := S2000x64) zeros2, View.ld_unit_zero (S := S2000x1) zeros2, View.ld_unit_zero (S := S1x64) zeros2, View.ld_unit_zero (S := S64x16) zeros2]
  obtain ⟨e00, e01, e10, e11, e20, e21, e30, e31, e40, e41⟩ := tile_positions t
  have hN : cfg1.N = 25 := N_1
  have ht : t.val < 25 := by have := t.isLt; omega
  funext j
  obtain ⟨p, q, rfl⟩ : ∃ (p : Fin 2000) (q : Fin 16), j = ix2 p q := ⟨j 0, j 1, eq_ix2 j⟩
  have hp : p.val < 2000 := p.isLt
  have hr : t.val * 2000 + p.val < 50000 := by omega
  have eo : ((cfg1.win 4).blk t).view.emb (ix2 p q) = ix2 (⟨t.val * 2000 + p.val, hr⟩ : Fin 50000) q := by
    funext a; apply Fin.ext
    match a with
    | ⟨0, _⟩ => show win1_4.index t (0 : Fin 2) * 2000 + 1 * p.val = t.val * 2000 + p.val; rw [e40]; omega
    | ⟨1, _⟩ => show win1_4.index t (1 : Fin 2) * 16 + 1 * q.val = q.val; rw [e41]; omega
  have en : ((cfg1.win 1).blk t).view.emb (ix2 p (0 : Fin 1)) = ix2 (⟨t.val * 2000 + p.val, hr⟩ : Fin 50000) (0 : Fin 1) := by
    funext a; apply Fin.ext
    match a with
    | ⟨0, _⟩ => show win1_1.index t (0 : Fin 2) * 2000 + 1 * p.val = t.val * 2000 + p.val; rw [e10]; omega
    | ⟨1, _⟩ => show win1_1.index t (1 : Fin 2) * 1 + 1 * 0 = 0; rw [e11]
  refine (tile_value _ _ _ _ p q).trans ?_
  show _ = matProd (hidden (V c main_v33) (V c main_v34) (V c main_v35)) (V c main_arg5) (((cfg1.win 4).blk t).view.emb (ix2 p q))
  rw [eo, matProd_apply]
  refine Finset.sum_congr rfl fun k _ => ?_
  have ea : ((cfg1.win 0).blk t).view.emb (ix2 p k) = ix2 (⟨t.val * 2000 + p.val, hr⟩ : Fin 50000) k := by
    funext a; apply Fin.ext
    match a with
    | ⟨0, _⟩ => show win1_0.index t (0 : Fin 2) * 2000 + 1 * p.val = t.val * 2000 + p.val; rw [e00]; omega
    | ⟨1, _⟩ => show win1_0.index t (1 : Fin 2) * 64 + 1 * k.val = k.val; rw [e01]; omega
  have eb : ((cfg1.win 2).blk t).view.emb (ix2 (0 : Fin 1) k) = ix2 (0 : Fin 1) k := by
    funext a; apply Fin.ext
    match a with
    | ⟨0, _⟩ => show win1_2.index t (0 : Fin 2) * 1 + 1 * 0 = 0; rw [e20]
    | ⟨1, _⟩ => show win1_2.index t (1 : Fin 2) * 64 + 1 * k.val = k.val; rw [e21]; omega
  have ew : ((cfg1.win 3).blk t).view.emb (ix2 k q) = ix2 k q := by
    funext a; apply Fin.ext
    match a with
    | ⟨0, _⟩ => show win1_3.index t (0 : Fin 2) * 64 + 1 * k.val = k.val; rw [e30]; omega
    | ⟨1, _⟩ => show win1_3.index t (1 : Fin 2) * 16 + 1 * q.val = q.val; rw [e31]; omega
  rw [hidden_apply]
  rw [show iblk1 V c 0 t (ix2 p k) = V c main_v33 (ix2 (⟨t.val * 2000 + p.val, hr⟩ : Fin 50000) k) from congrArg (V c main_v33) ea,
    show iblk1 V c 1 t (ix2 p (0 : Fin 1)) = V c main_v34 (ix2 (⟨t.val * 2000 + p.val, hr⟩ : Fin 50000) (0 : Fin 1)) from congrArg (V c main_v34) en,
    show iblk1 V c 2 t (ix2 (0 : Fin 1) k) = V c main_v35 (ix2 (0 : Fin 1) k) from congrArg (V c main_v35) eb,
    show iblk1 V c 3 t (ix2 k q) = V c main_arg5 (ix2 k q) from congrArg (V c main_arg5) ew]

/-- An index of the result array is in point `t`'s block iff each coordinate is in the block's range on its axis. -/
theorem mem_tile (t : Fin cfg1.N) (i : S50000x16.Idx) :
    i ∈ ((cfg1.win 4).blk t).view.set ↔ ∀ a : Fin 2, win1_4.index t a * S2000x16.size a ≤ (i a).val ∧ (i a).val < win1_4.index t a * S2000x16.size a + S2000x16.size a := by
  show i ∈ ((View.whole main_v36).slice (win1_4.rect t)).set ↔ _
  rw [View.set_slice_whole, Rect.mem_set_unit]
  exact Iff.rfl

/-- Every index of the result array is written back by some point: row `r` by point r / 2000. -/
theorem covered (i : S50000x16.Idx) :
    ∃ t : Fin cfg1.N, (cfg1.win 4).flush t = true ∧ i ∈ ((cfg1.win 4).blk t).view.set := by
  have hN : cfg1.N = 25 := N_1
  have hi0 : (i 0).val < 50000 := (i 0).isLt
  have hi1 : (i 1).val < 16 := (i 1).isLt
  obtain ⟨t, ht⟩ : ∃ t : Fin cfg1.N, t.val = (i 0).val / 2000 := ⟨⟨(i 0).val / 2000, by omega⟩, rfl⟩
  obtain ⟨-, -, -, -, -, -, -, -, e40, e41⟩ := tile_positions t
  refine ⟨t, flush1_4 t, ?_⟩
  rw [mem_tile]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 16 ≤ (i 1).val ∧ (i 1).val < win1_4.index t (1 : Fin 2) * 16 + 16; omega

/-- After the step the result array is the whole hidden activation times the weight array, as the step found the
    four arrays. -/
theorem result_array (c : Dev nD) :
    (dat1 V c).arrAt 4 cfg1.N = matProd (hidden (V c main_v33) (V c main_v34) (V c main_v35)) (V c main_arg5) :=
  (dat1 V c).arrAt_eq_of_cover 4 (matProd (hidden (V c main_v33) (V c main_v34) (V c main_v35)) (V c main_arg5))
    (fun t _ => flushed_tile V c t) covered

end Cert.KernelIdeal.HiddenLayer

end
-- ==== Proof.OutputLayer.lean ====
/-
  The last dense step on the device: the aggregated class scores scaled by the destination norm and shifted by the bias,
  2000 rows at a time.

  Grid point `t` (of 25) reads rows 2000·t … of the [50000, 16] aggregated array and of the [50000, 1] norm column,
  and the whole [1, 16] bias row, and writes  A(r, q) · ν(r) + β(q)  into the same rows of the [50000, 16] result. Every
  row is written by exactly the point r / 2000, so the result is that function of the three arrays, row by row.
  Stated for any contents `V` of the buffers at the moment the step starts.
-/
import proofs.«102962_j19619410608308_1_alg».proof.Proof.Gen.KernelIdeal.Frame
import proofs.«102962_j19619410608308_1_alg».proof.Proof.LibColumn
import proofs.«102962_j19619410608308_1_alg».proof.Proof.GraphConvSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.OutputLayer

open Cert.KernelIdeal Cert.KernelIdeal.Gen Idealize.ShloMosaic Idealize.ShloMosaic.TcCoe Idealize.SL.Sem
open Idealize.ShloMosaic.ValueIdx Cert.GraphConvSpec
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- What one point computes, at (p, q) of its tile: the tile's entry times its row's norm plus the column's bias. -/
theorem tile_value (x0 : Vec Ideal S2000x16 .f32) (x1 : Vec Ideal S2000x1 .f32) (x2 : Vec Ideal S1x16 .f32)
    (p : Fin 2000) (q : Fin 16) :
    k2_pay1 x0 x1 x2 (ix2 p q) = x0 (ix2 p q) * x1 (ix2 p (0 : Fin 1)) + x2 (ix2 (0 : Fin 1) q) := by
  unfold k2_pay1
  simp only [shapeCast_self, addf_apply, mulf_apply]
  rw [Cert.LibColumn.broadcastTo_a1_ab_apply, broadcastTo_1b_ab_apply]

/-- The printed index maps over the grid: at point `t` the aggregated window, the norm window and the result window
    sit at row block `t` (column block 0), the bias window at block (0, 0). -/
theorem tile_positions : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is rows 2000·t … of the scaled and shifted array. -/
theorem flushed_tile (c : Dev nD) (t : Fin cfg2.N) :
    (dat2 V c).flushed 3 t
      = ((cfg2.win 3).blk t).view.read (Elt Ideal) (scaleShift (V c main_v56) (V c main_v57) (V c main_v58)) := by
  show (cfg2.win 3).cut (grid2.coords t) ((dat2 V c).after 3 t) = _
  rw [after2_3]
  unfold out2_3
  rw [View.canon_unit_zero zeros2]
  simp only [View.ld_unit_zero (S := S2000x16) zeros2, View.ld_unit_zero (S := S2000x1) zeros2, View.ld_unit_zero (S := S1x16) zeros2]
  obtain ⟨e00, e01, e10, e11, e20, e21, e30, e31⟩ := tile_positions t
  have hN : cfg2.N = 25 := N_2
  have ht : t.val < 25 := by have := t.isLt; omega
  funext j
  obtain ⟨p, q, rfl⟩ : ∃ (p : Fin 2000) (q : Fin 16), j = ix2 p q := ⟨j 0, j 1, eq_ix2 j⟩
  have hp : p.val < 2000 := p.isLt
  have hr : t.val * 2000 + p.val < 50000 := by omega
  have eo : ((cfg2.win 3).blk t).view.emb (ix2 p q) = ix2 (⟨t.val * 2000 + p.val, hr⟩ : Fin 50000) q := by
    funext a; apply Fin.ext
    match a with
    | ⟨0, _⟩ => show win2_3.index t (0 : Fin 2) * 2000 + 1 * p.val = t.val * 2000 + p.val; rw [e30]; omega
    | ⟨1, _⟩ => show win2_3.index t (1 : Fin 2) * 16 + 1 * q.val = q.val; rw [e31]; omega
  have ea : ((cfg2.win 0).blk t).view.emb (ix2 p q) = ix2 (⟨t.val * 2000 + p.val, hr⟩ : Fin 50000) q := by
    funext a; apply Fin.ext
    match a with
    | ⟨0, _⟩ => show win2_0.index t (0 : Fin 2) * 2000 + 1 * p.val = t.val * 2000 + p.val; rw [e00]; omega
    | ⟨1, _⟩ => show win2_0.index t (1 : Fin 2) * 16 + 1 * q.val = q.val; rw [e01]; omega
  have en : ((cfg2.win 1).blk t).view.emb (ix2 p (0 : Fin 1)) = ix2 (⟨t.val * 2000 + p.val, hr⟩ : Fin 50000) (0 : Fin 1) := by
    funext a; apply Fin.ext
    match a with
    | ⟨0, _⟩ => show win2_1.index t (0 : Fin 2) * 2000 + 1 * p.val = t.val * 2000 + p.val; rw [e10]; omega
    | ⟨1, _⟩ => show win2_1.index t (1 : Fin 2) * 1 + 1 * 0 = 0; rw [e11]
  have eb : ((cfg2.win 2).blk t).view.emb (ix2 (0 : Fin 1) q) = ix2 (0 : Fin 1) q := by
    funext a; apply Fin.ext
    match a with
    | ⟨0, _⟩ => show win2_2.index t (0 : Fin 2) * 1 + 1 * 0 = 0; rw [e20]
    | ⟨1, _⟩ => show win2_2.index t (1 : Fin 2) * 16 + 1 * q.val = q.val; rw [e21]; omega
  refine (tile_value _ _ _ p q).trans ?_
  show _ = scaleShift (V c main_v56) (V c main_v57) (V c main_v58) (((cfg2.win 3).blk t).view.emb (ix2 p q))
  rw [eo, scaleShift_apply]
  rw [show iblk2 V c 0 t (ix2 p q) = V c main_v56 (ix2 (⟨t.val * 2000 + p.val, hr⟩ : Fin 50000) q) from congrArg (V c main_v56) ea,
    show iblk2 V c 1 t (ix2 p (0 : Fin 1)) = V c main_v57 (ix2 (⟨t.val * 2000 + p.val, hr⟩ : Fin 50000) (0 : Fin 1)) from congrArg (V c main_v57) en,
    show iblk2 V c 2 t (ix2 (0 : Fin 1) q) = V c main_v58 (ix2 (0 : Fin 1) q) from congrArg (V c main_v58) eb]

/-- An index of the result array is in point `t`'s block iff each coordinate is in the block's range on its axis. -/
theorem mem_tile (t : Fin cfg2.N) (i : S50000x16.Idx) :
    i ∈ ((cfg2.win 3).blk t).view.set ↔ ∀ a : Fin 2, win2_3.index t a * S2000x16.size a ≤ (i a).val ∧ (i a).val < win2_3.index t a * S2000x16.size a + S2000x16.size a := by
  show i ∈ ((View.whole main_v59).slice (win2_3.rect t)).set ↔ _
  rw [View.set_slice_whole, Rect.mem_set_unit]
  exact Iff.rfl

/-- Every index of the result array is written back by some point: row `r` by point r / 2000. -/
theorem covered (i : S50000x16.Idx) :
    ∃ t : Fin cfg2.N, (cfg2.win 3).flush t = true ∧ i ∈ ((cfg2.win 3).blk t).view.set := by
  have hN : cfg2.N = 25 := N_2
  have hi0 : (i 0).val < 50000 := (i 0).isLt
  have hi1 : (i 1).val < 16 := (i 1).isLt
  obtain ⟨t, ht⟩ : ∃ t : Fin cfg2.N, t.val = (i 0).val / 2000 := ⟨⟨(i 0).val / 2000, by omega⟩, rfl⟩
  obtain ⟨-, -, -, -, -, -, e30, e31⟩ := tile_positions t
  refine ⟨t, flush2_3 t, ?_⟩
  rw [mem_tile]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 16 ≤ (i 1).val ∧ (i 1).val < win2_3.index t (1 : Fin 2) * 16 + 16; omega

/-- After the step the result array is the aggregated array scaled by the norm column and shifted by the bias row,
    as the step found the three. -/
theorem result_array (c : Dev nD) :
    (dat2 V c).arrAt 3 cfg2.N = scaleShift (V c main_v56) (V c main_v57) (V c main_v58) :=
  (dat2 V c).arrAt_eq_of_cover 3 (scaleShift (V c main_v56) (V c main_v57) (V c main_v58)) (fun t _ => flushed_tile V c t) covered

end Cert.KernelIdeal.OutputLayer

end
-- ==== Proof.Aggregation.lean ====
/-
  The irregular part of a graph convolution, kept on the host and shared word for word by both programs.

  * `degreeNorm idx` — for each of the 50000 nodes, the number of edges whose endpoint `idx` names it (a scatter-add of
    ones into zeros), clamped below by 1, then the reciprocal square root.
  * `wrapIndex idx`  — an endpoint array with negative entries shifted up by 50000, as an [800000, 1] index column.
  * `aggregate h ν src dst` — gather the rows `h[src]`, scale each by its source node's norm `ν[src]`, and scatter-add
    the scaled rows into zeros at `dst`; once for 64 features, once for 16.
  Nothing is proved about these here: the two programs apply the SAME operations, so they only need a name.
-/
import proofs.«102962_j19619410608308_1_alg».proof.Proof.Gen.KernelIdeal

noncomputable section

namespace Cert.KernelIdeal.Aggregation

open Cert.KernelIdeal Cert.KernelIdeal.Facts₀ Idealize.ShloMosaic

variable {F : FTy → Type} [FloatOps F]

/-- The per-node norm rsqrt(max(degree, 1)) of an endpoint array. -/
def degreeNorm (idx : (⟨S800000, .i32⟩ : BufTy).Contents (Elt F)) : (⟨S50000, .f32⟩ : BufTy).Contents (Elt F) :=
  Host.rsqrt (maximumf
    (Host.scatterAdd scatter_S50000_S800000x1_S800000_n_0_0_1
      (broadcastInDim S50000 ![] bcast_S_S50000 (constant (F := F) S_ .f32 0x00000000#32))
      (broadcastInDim S800000x1 ![0] bcast_S800000_S800000x1_0 idx)
      (broadcastInDim S800000 ![] bcast_S_S800000 (constant (F := F) S_ .f32 0x3F800000#32)))
    (broadcastInDim S50000 ![] bcast_S_S50000 (constant (F := F) S_ .f32 0x3F800000#32)))

/-- An endpoint array as a column of row indices, a negative entry counted from the end. -/
def wrapIndex (idx : (⟨S800000, .i32⟩ : BufTy).Contents (Elt F)) : (⟨S800000x1, .i32⟩ : BufTy).Contents (Elt F) :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Gather 64-feature rows at the sources, scale by the source norms, scatter-add at the destinations. -/
def aggregate64 (h : (⟨S50000x64, .f32⟩ : BufTy).Contents (Elt F)) (ν : (⟨S50000, .f32⟩ : BufTy).Contents (Elt F))
    (src dst : (⟨S800000, .i32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 dst)
    (mulf (Host.gather gather_S50000x64_S800000x1_S800000x64_1_0_n_n_0_1_164 h (wrapIndex src))
      (broadcastInDim S800000x64 ![0, 1] bcast_S800000x1_S800000x64_0_1
        (broadcastInDim S800000x1 ![0] bcast_S800000_S800000x1_0
          (Host.gather gather_S50000_S800000x1_S800000_n_0_n_n_0_1_1 ν (wrapIndex src)))))

/-- The same for 16-feature rows. -/
def aggregate16 (h : (⟨S50000x16, .f32⟩ : BufTy).Contents (Elt F)) (ν : (⟨S50000, .f32⟩ : BufTy).Contents (Elt F))
    (src dst : (⟨S800000, .i32⟩ : BufTy).Contents (Elt F)) : (⟨S50000x16, .f32⟩ : BufTy).Contents (Elt F) :=
  Host.scatterAdd scatter_S50000x16_S800000x1_S800000x16_1_0_0_1
    (broadcastInDim S50000x16 ![] bcast_S_S50000x16 (constant (F := F) S_ .f32 0x00000000#32))
    (broadcastInDim S800000x1 ![0] bcast_S800000_S800000x1_0 dst)
    (mulf (Host.gather gather_S50000x16_S800000x1_S800000x16_1_0_n_n_0_1_116 h (wrapIndex src))
      (broadcastInDim S800000x16 ![0, 1] bcast_S800000x1_S800000x16_0_1
        (broadcastInDim S800000x1 ![0] bcast_S800000_S800000x1_0
          (Host.gather gather_S50000_S800000x1_S800000_n_0_n_n_0_1_1 ν (wrapIndex src)))))

end Cert.KernelIdeal.Aggregation

end
-- ==== Proof.Network.lean ====
/-
  The two-layer graph convolution as ONE function of the seven argument arrays, on the extended reals:

    out = scaleShift (agg16 (matProd (hidden (agg64 (matProd x W1)) ν_dst b1) W2)) ν_dst b2

  where ν_src, ν_dst are the degree norms of the two endpoint arrays, `agg` gathers rows at the sources, scales them by
  ν_src and scatter-adds them at the destinations. Both programs are shown to compute this function.
-/
import proofs.«102962_j19619410608308_1_alg».proof.Proof.GraphConvSpec
import proofs.«102962_j19619410608308_1_alg».proof.Proof.Aggregation

noncomputable section

namespace Cert.Network

open Cert.KernelIdeal Idealize.ShloMosaic Cert.GraphConvSpec Cert.KernelIdeal.Aggregation

/-- The network's output as a function of the features, the two endpoint arrays, and the weights and biases of the
    two layers. -/
def network (x : (⟨S50000x256, .f32⟩ : BufTy).Contents (Elt Ideal)) (src dst : (⟨S800000, .i32⟩ : BufTy).Contents (Elt Ideal))
    (W1 : (⟨S256x64, .f32⟩ : BufTy).Contents (Elt Ideal)) (b1 : (⟨S64, .f32⟩ : BufTy).Contents (Elt Ideal))
    (W2 : (⟨S64x16, .f32⟩ : BufTy).Contents (Elt Ideal)) (b2 : (⟨S16, .f32⟩ : BufTy).Contents (Elt Ideal)) :
    (⟨S50000x16, .f32⟩ : BufTy).Contents (Elt Ideal) :=
  scaleShift
    (aggregate16
      (matProd (hidden (aggregate64 (matProd x W1) (degreeNorm src) src dst) (asColumn (degreeNorm dst)) (asRow b1)) W2)
      (degreeNorm src) src dst)
    (asColumn (degreeNorm dst)) (asRow b2)

end Cert.Network

end
-- ==== Proof.DeviceValue.lean ====
/-
  What the device program leaves in its result buffer, as a function of the seven arguments.

  The contents of the buffers are followed from the launch through the six segments. The first host stretch leaves the
  two degree norms; the first dense step leaves x W1; the second host stretch aggregates it and lays the destination
  norm out as a column and the first bias as a row; the middle dense step leaves hidden(..) W2; the third host stretch
  aggregates that and lays out the norm and the second bias; the last dense step leaves the scaled and shifted
  aggregate. A buffer no operation of a segment writes is carried through it unchanged. Composed, the result buffer
  ends at the network of the launch contents of the arguments.
-/
import proofs.«102962_j19619410608308_1_alg».proof.Proof.Gen.KernelIdeal.Frame
import proofs.«102962_j19619410608308_1_alg».proof.Proof.FirstProjection
import proofs.«102962_j19619410608308_1_alg».proof.Proof.HiddenLayer
import proofs.«102962_j19619410608308_1_alg».proof.Proof.OutputLayer
import proofs.«102962_j19619410608308_1_alg».proof.Proof.Network
import proofs.«102962_j19619410608308_1_alg».proof.Proof.LibColumn
import Idealize.ShloMosaic.Lib.StableHlo.Run
import Idealize.ShloMosaic.Lib.ValueLayout

set_option maxRecDepth 16384

noncomputable section

namespace Cert.KernelIdeal.DeviceValue

open Cert.KernelIdeal Cert.KernelIdeal.Gen
open Idealize.ShloMosaic Idealize.ShloMosaic.TcCoe Idealize.SL.Sem Idealize.ShloMosaic.StableHlo
open Idealize.ShloMosaic.ValueIdx Cert.GraphConvSpec Cert.KernelIdeal.Aggregation Cert.Network

variable (m : (ℓ : Loc nD τ sig) → Buf (Elt Ideal) ℓ) (ρ : Dev nD → PrngReg) (c : Dev nD)

/-! ## A vector reshaped to a column or to a row -/

/-- The reshape of a length-50000 vector to a [50000, 1] column holds the vector's entry of each row. -/
theorem column_of_reshape (n : S50000.Idx → EReal) : shapeCast S50000x1 n Facts₀.shapeCasts_S50000_S50000x1 = asColumn n := by
  funext i
  obtain ⟨p, u, rfl⟩ : ∃ (p : Fin 50000) (u : Fin 1), i = ix2 p u := ⟨i 0, i 1, eq_ix2 i⟩
  rw [Cert.LibColumn.shapeCast_a_a1_apply, asColumn_apply]

/-- The reshape of a length-64 vector to a [1, 64] row holds the vector's entry of each column. -/
theorem row64_of_reshape (b : S64.Idx → EReal) : shapeCast S1x64 b Facts₀.shapeCasts_S64_S1x64 = asRow b := by
  funext i
  obtain ⟨u, q, rfl⟩ : ∃ (u : Fin 1) (q : Fin 64), i = ix2 u q := ⟨i 0, i 1, eq_ix2 i⟩
  rw [shapeCast_a_1a_apply, asRow_apply]

/-- The reshape of a length-16 vector to a [1, 16] row holds the vector's entry of each column. -/
theorem row16_of_reshape (b : S16.Idx → EReal) : shapeCast S1x16 b Facts₀.shapeCasts_S16_S1x16 = asRow b := by
  funext i
  obtain ⟨u, q, rfl⟩ : ∃ (u : Fin 1) (q : Fin 16), i = ix2 u q := ⟨i 0, i 1, eq_ix2 i⟩
  rw [shapeCast_a_1a_apply, asRow_apply]

/-! ## After the first host stretch: the two degree norms; the arguments untouched -/

theorem norm_src_made : W1 m ρ c (Proc.devRef .tc main_v9) = degreeNorm (m ((c : Thread nD τ).loc main_arg1)) := by
  show StableHlo.after hostOps0 (W0 m ρ c) (Proc.devRef .tc main_v9) = _
  after_results
  rfl
theorem norm_dst_made : W1 m ρ c (Proc.devRef .tc main_v12) = degreeNorm (m ((c : Thread nD τ).loc main_arg2)) := by
  show StableHlo.after hostOps0 (W0 m ρ c) (Proc.devRef .tc main_v12) = _
  after_results
  rfl
theorem kept1_arg0 : W1 m ρ c (Proc.devRef .tc main_arg0) = (m ((c : Thread nD τ).loc main_arg0)) := by
  show StableHlo.after hostOps0 (W0 m ρ c) (Proc.devRef .tc main_arg0) = _
  after_results
  try rfl
theorem kept1_arg1 : W1 m ρ c (Proc.devRef .tc main_arg1) = (m ((c : Thread nD τ).loc main_arg1)) := by
  show StableHlo.after hostOps0 (W0 m ρ c) (Proc.devRef .tc main_arg1) = _
  after_results
  try rfl
theorem kept1_arg2 : W1 m ρ c (Proc.devRef .tc main_arg2) = (m ((c : Thread nD τ).loc main_arg2)) := by
  show StableHlo.after hostOps0 (W0 m ρ c) (Proc.devRef .tc main_arg2) = _
  after_results
  try rfl
theorem kept1_arg3 : W1 m ρ c (Proc.devRef .tc main_arg3) = (m ((c : Thread nD τ).loc main_arg3)) := by
  show StableHlo.after hostOps0 (W0 m ρ c) (Proc.devRef .tc main_arg3) = _
  after_results
  try rfl
theorem kept1_arg4 : W1 m ρ c (Proc.devRef .tc main_arg4) = (m ((c : Thread nD τ).loc main_arg4)) := by
  show StableHlo.after hostOps0 (W0 m ρ c) (Proc.devRef .tc main_arg4) = _
  after_results
  try rfl
theorem kept1_arg5 : W1 m ρ c (Proc.devRef .tc main_arg5) = (m ((c : Thread nD τ).loc main_arg5)) := by
  show StableHlo.after hostOps0 (W0 m ρ c) (Proc.devRef .tc main_arg5) = _
  after_results
  try rfl
theorem kept1_arg6 : W1 m ρ c (Proc.devRef .tc main_arg6) = (m ((c : Thread nD τ).loc main_arg6)) := by
  show StableHlo.after hostOps0 (W0 m ρ c) (Proc.devRef .tc main_arg6) = _
  after_results
  try rfl

/-! ## After the first dense step: the first projection; everything it does not write is carried -/

theorem first_projection_made : W2 m ρ c (Proc.devRef .tc main_v13) = matProd (m ((c : Thread nD τ).loc main_arg0)) (m ((c : Thread nD τ).loc main_arg3)) := by
  refine (W2_arr m ρ c 2).trans ?_
  refine (Cert.KernelIdeal.FirstProjection.result_array (V1 m ρ) c).trans ?_
  show matProd (W1 m ρ c (Proc.devRef .tc main_arg0)) (W1 m ρ c (Proc.devRef .tc main_arg3)) = _
  rw [kept1_arg0, kept1_arg3]
theorem kept2_v9 : W2 m ρ c (Proc.devRef .tc main_v9) = W1 m ρ c (Proc.devRef .tc main_v9) :=
  W2_of_ne m ρ c main_v9 (by decide)
theorem kept2_v12 : W2 m ρ c (Proc.devRef .tc main_v12) = W1 m ρ c (Proc.devRef .tc main_v12) :=
  W2_of_ne m ρ c main_v12 (by decide)
theorem kept2_arg1 : W2 m ρ c (Proc.devRef .tc main_arg1) = W1 m ρ c (Proc.devRef .tc main_arg1) :=
  W2_of_ne m ρ c main_arg1 (by decide)
theorem kept2_arg2 : W2 m ρ c (Proc.devRef .tc main_arg2) = W1 m ρ c (Proc.devRef .tc main_arg2) :=
  W2_of_ne m ρ c main_arg2 (by decide)
theorem kept2_arg4 : W2 m ρ c (Proc.devRef .tc main_arg4) = W1 m ρ c (Proc.devRef .tc main_arg4) :=
  W2_of_ne m ρ c main_arg4 (by decide)
theorem kept2_arg5 : W2 m ρ c (Proc.devRef .tc main_arg5) = W1 m ρ c (Proc.devRef .tc main_arg5) :=
  W2_of_ne m ρ c main_arg5 (by decide)
theorem kept2_arg6 : W2 m ρ c (Proc.devRef .tc main_arg6) = W1 m ρ c (Proc.devRef .tc main_arg6) :=
  W2_of_ne m ρ c main_arg6 (by decide)

/-! ## After the second host stretch: the first aggregate, the norm column and the bias row -/

set_option maxHeartbeats 4000000 in
theorem first_aggregate_made : W3 m ρ c (Proc.devRef .tc main_v33)
    = aggregate64 (W2 m ρ c (Proc.devRef .tc main_v13)) (W2 m ρ c (Proc.devRef .tc main_v9)) (W2 m ρ c (Proc.devRef .tc main_arg1)) (W2 m ρ c (Proc.devRef .tc main_arg2)) := by
  show StableHlo.after hostOps1 (W2 m ρ c) (Proc.devRef .tc main_v33) = _
  after_results_simp
  try rfl
set_option maxHeartbeats 4000000 in
theorem norm_column1_made : W3 m ρ c (Proc.devRef .tc main_v34) = asColumn (W2 m ρ c (Proc.devRef .tc main_v12)) := by
  refine Eq.trans ?_ (column_of_reshape (W2 m ρ c (Proc.devRef .tc main_v12)))
  show StableHlo.after hostOps1 (W2 m ρ c) (Proc.devRef .tc main_v34) = _
  after_results_simp
  try rfl
set_option maxHeartbeats 4000000 in
theorem bias_row1_made : W3 m ρ c (Proc.devRef .tc main_v35) = asRow (W2 m ρ c (Proc.devRef .tc main_arg4)) := by
  refine Eq.trans ?_ (row64_of_reshape (W2 m ρ c (Proc.devRef .tc main_arg4)))
  show StableHlo.after hostOps1 (W2 m ρ c) (Proc.devRef .tc main_v35) = _
  after_results_simp
  try rfl
set_option maxHeartbeats 4000000 in
theorem kept3_v9 : W3 m ρ c (Proc.devRef .tc main_v9) = W2 m ρ c (Proc.devRef .tc main_v9) := by
  show StableHlo.after hostOps1 (W2 m ρ c) (Proc.devRef .tc main_v9) = _
  after_results_simp
  try rfl
set_option maxHeartbeats 4000000 in
theorem kept3_v12 : W3 m ρ c (Proc.devRef .tc main_v12) = W2 m ρ c (Proc.devRef .tc main_v12) := by
  show StableHlo.after hostOps1 (W2 m ρ c) (Proc.devRef .tc main_v12) = _
  after_results_simp
  try rfl
set_option maxHeartbeats 4000000 in
theorem kept3_arg1 : W3 m ρ c (Proc.devRef .tc main_arg1) = W2 m ρ c (Proc.devRef .tc main_arg1) := by
  show StableHlo.after hostOps1 (W2 m ρ c) (Proc.devRef .tc main_arg1) = _
  after_results_simp
  try rfl
set_option maxHeartbeats 4000000 in
theorem kept3_arg2 : W3 m ρ c (Proc.devRef .tc main_arg2) = W2 m ρ c (Proc.devRef .tc main_arg2) := by
  show StableHlo.after hostOps1 (W2 m ρ c) (Proc.devRef .tc main_arg2) = _
  after_results_simp
  try rfl
set_option maxHeartbeats 4000000 in
theorem kept3_arg5 : W3 m ρ c (Proc.devRef .tc main_arg5) = W2 m ρ c (Proc.devRef .tc main_arg5) := by
  show StableHlo.after hostOps1 (W2 m ρ c) (Proc.devRef .tc main_arg5) = _
  after_results_simp
  try rfl
set_option maxHeartbeats 4000000 in
theorem kept3_arg6 : W3 m ρ c (Proc.devRef .tc main_arg6) = W2 m ρ c (Proc.devRef .tc main_arg6) := by
  show StableHlo.after hostOps1 (W2 m ρ c) (Proc.devRef .tc main_arg6) = _
  after_results_simp
  try rfl

/-! ## After the middle dense step: the hidden activation times the second weights -/

theorem hidden_projection_made : W4 m ρ c (Proc.devRef .tc main_v36)
    = matProd (hidden (W3 m ρ c (Proc.devRef .tc main_v33)) (W3 m ρ c (Proc.devRef .tc main_v34)) (W3 m ρ c (Proc.devRef .tc main_v35))) (W3 m ρ c (Proc.devRef .tc main_arg5)) := by
  refine (W4_arr m ρ c 4).trans ?_
  exact Cert.KernelIdeal.HiddenLayer.result_array (V3 m ρ) c
theorem kept4_v9 : W4 m ρ c (Proc.devRef .tc main_v9) = W3 m ρ c (Proc.devRef .tc main_v9) :=
  W4_of_ne m ρ c main_v9 (by decide)
theorem kept4_v12 : W4 m ρ c (Proc.devRef .tc main_v12) = W3 m ρ c (Proc.devRef .tc main_v12) :=
  W4_of_ne m ρ c main_v12 (by decide)
theorem kept4_arg1 : W4 m ρ c (Proc.devRef .tc main_arg1) = W3 m ρ c (Proc.devRef .tc main_arg1) :=
  W4_of_ne m ρ c main_arg1 (by decide)
theorem kept4_arg2 : W4 m ρ c (Proc.devRef .tc main_arg2) = W3 m ρ c (Proc.devRef .tc main_arg2) :=
  W4_of_ne m ρ c main_arg2 (by decide)
theorem kept4_arg6 : W4 m ρ c (Proc.devRef .tc main_arg6) = W3 m ρ c (Proc.devRef .tc main_arg6) :=
  W4_of_ne m ρ c main_arg6 (by decide)

/-! ## After the third host stretch: the second aggregate, the norm column and the bias row -/

set_option maxHeartbeats 4000000 in
theorem second_aggregate_made : W5 m ρ c (Proc.devRef .tc main_v56)
    = aggregate16 (W4 m ρ c (Proc.devRef .tc main_v36)) (W4 m ρ c (Proc.devRef .tc main_v9)) (W4 m ρ c (Proc.devRef .tc main_arg1)) (W4 m ρ c (Proc.devRef .tc main_arg2)) := by
  show StableHlo.after hostOps2 (W4 m ρ c) (Proc.devRef .tc main_v56) = _
  after_results_simp
  try rfl
set_option maxHeartbeats 4000000 in
theorem norm_column2_made : W5 m ρ c (Proc.devRef .tc main_v57) = asColumn (W4 m ρ c (Proc.devRef .tc main_v12)) := by
  refine Eq.trans ?_ (column_of_reshape (W4 m ρ c (Proc.devRef .tc main_v12)))
  show StableHlo.after hostOps2 (W4 m ρ c) (Proc.devRef .tc main_v57) = _
  after_results_simp
  try rfl
set_option maxHeartbeats 4000000 in
theorem bias_row2_made : W5 m ρ c (Proc.devRef .tc main_v58) = asRow (W4 m ρ c (Proc.devRef .tc main_arg6)) := by
  refine Eq.trans ?_ (row16_of_reshape (W4 m ρ c (Proc.devRef .tc main_arg6)))
  show StableHlo.after hostOps2 (W4 m ρ c) (Proc.devRef .tc main_v58) = _
  after_results_simp
  try rfl

/-! ## After the last dense step: the result -/

theorem output_made : W6 m ρ c (Proc.devRef .tc main_v59)
    = scaleShift (W5 m ρ c (Proc.devRef .tc main_v56)) (W5 m ρ c (Proc.devRef .tc main_v57)) (W5 m ρ c (Proc.devRef .tc main_v58)) := by
  refine (W6_arr m ρ c 3).trans ?_
  exact Cert.KernelIdeal.OutputLayer.result_array (V5 m ρ) c

/-! ## Composed -/

/-- The result buffer ends at the network of the arguments' launch contents. -/
theorem result_is_network : W6 m ρ c (Proc.devRef .tc main_v59)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [output_made, second_aggregate_made, norm_column2_made, bias_row2_made, hidden_projection_made,
    kept4_v9, kept4_v12, kept4_arg1, kept4_arg2, kept4_arg6,
    first_aggregate_made, norm_column1_made, bias_row1_made,
    kept3_v9, kept3_v12, kept3_arg1, kept3_arg2, kept3_arg5, kept3_arg6,
    first_projection_made,
    kept2_v9, kept2_v12, kept2_arg1, kept2_arg2, kept2_arg4, kept2_arg5, kept2_arg6,
    norm_src_made, norm_dst_made, kept1_arg1, kept1_arg2, kept1_arg4, kept1_arg5, kept1_arg6]
  rfl

end Cert.KernelIdeal.DeviceValue

end
-- ==== Proof.RefRead.lean ====
/-
  The reference program computes the network.

  Its run ends with the result at the composition of its 85 host operations. Read stage by stage: the two degree norms
  and the two aggregations are the shared host operations themselves; each `dot_general` is the matrix product (the
  sum over the one contracted axis); multiply-by-the-broadcast-norm, add-the-broadcast-bias and the maximum with the
  zero splat are `scaleShift` / `hidden` read at an index, the norm and bias reaching index (p, q) through two
  broadcasts each as ν(p) and β(q).
-/
import proofs.«102962_j19619410608308_1_alg».proof.Defs
import proofs.«102962_j19619410608308_1_alg».proof.Proof.Gen.ReferenceIdeal.Read
import proofs.«102962_j19619410608308_1_alg».proof.Proof.Network
import Idealize.ShloMosaic.Lib.ValueIdx

noncomputable section

open scoped BigOperators

namespace Cert.ReferenceIdeal.RefValue

open Cert.ReferenceIdeal Cert.ReferenceIdeal.Read Idealize.ShloMosaic Idealize.ShloMosaic.TcCoe Idealize.SL.Sem
open Idealize.ShloMosaic.ValueIdx Cert.GraphConvSpec Cert.KernelIdeal.Aggregation Cert.Network

variable (x0 : (⟨S50000x256, .f32⟩ : BufTy).Contents (Elt Ideal)) (x1 x2 : (⟨S800000, .i32⟩ : BufTy).Contents (Elt Ideal))
  (x3 : (⟨S256x64, .f32⟩ : BufTy).Contents (Elt Ideal)) (x4 : (⟨S64, .f32⟩ : BufTy).Contents (Elt Ideal))
  (x5 : (⟨S64x16, .f32⟩ : BufTy).Contents (Elt Ideal)) (x6 : (⟨S16, .f32⟩ : BufTy).Contents (Elt Ideal))

/-- The source norm is the shared degree norm of the source endpoints. -/
theorem norm_src : val_main_v9 (F := Ideal) x1 = degreeNorm x1 := rfl
/-- The destination norm is the shared degree norm of the destination endpoints. -/
theorem norm_dst : val_main_v12 (F := Ideal) x2 = degreeNorm x2 := rfl

/-- The first `dot_general` is the matrix product of the features and the first weights. -/
theorem first_projection : val_main_v13 (F := Ideal) x0 x3 = matProd x0 x3 := by
  funext i
  obtain ⟨p, q, rfl⟩ : ∃ (p : Fin 50000) (q : Fin 64), i = ix2 p q := ⟨i 0, i 1, eq_ix2 i⟩
  rw [val_main_v13_apply, matProd_apply]
  refine Finset.sum_congr rfl fun k _ => ?_
  have el : lidx_main_v13 (ix2 p q) k = ix2 p k := funext fun a => Fin.ext (by match a with | ⟨0, _⟩ => rfl | ⟨1, _⟩ => rfl)
  have er : ridx_main_v13 (ix2 p q) k = ix2 k q := funext fun a => Fin.ext (by match a with | ⟨0, _⟩ => rfl | ⟨1, _⟩ => rfl)
  rw [el, er]

/-- The first aggregation is the shared one, of the first projection. -/
theorem first_aggregate :
    val_main_v33 (F := Ideal) x0 x1 x2 x3 = aggregate64 (val_main_v13 (F := Ideal) x0 x3) (val_main_v9 (F := Ideal) x1) x1 x2 := rfl

/-- Scaling by the broadcast norm, adding the broadcast bias and the maximum with the zero splat are the hidden
    activation of the aggregate. -/
theorem hidden_activation :
    val_main_v40 (F := Ideal) x0 x1 x2 x3 x4
      = hidden (val_main_v33 (F := Ideal) x0 x1 x2 x3) (asColumn (val_main_v12 (F := Ideal) x2)) (asRow x4) := by
  funext i
  obtain ⟨p, q, rfl⟩ : ∃ (p : Fin 50000) (q : Fin 64), i = ix2 p q := ⟨i 0, i 1, eq_ix2 i⟩
  rw [hidden_apply, asColumn_apply, asRow_apply, val_main_v40_apply, val_main_v39_apply, val_main_v36_apply,
    val_main_v35_apply, val_main_v34_apply, val_main_v38_apply, val_main_v37_apply, val_main_call0_v0_apply,
    val_main_call0_cst_apply]
  have en : idx_main_v34 (idx_main_v35 (ix2 p q)) = ix1 p := funext fun a => Fin.ext (by match a with | ⟨0, _⟩ => rfl)
  have eb : idx_main_v37 (idx_main_v38 (ix2 p q)) = ix1 q := funext fun a => Fin.ext (by match a with | ⟨0, _⟩ => rfl)
  rw [en, eb]
  rfl

/-- The second `dot_general` is the matrix product of the hidden activation and the second weights. -/
theorem second_projection :
    val_main_v41 (F := Ideal) x0 x1 x2 x3 x4 x5 = matProd (val_main_v40 (F := Ideal) x0 x1 x2 x3 x4) x5 := by
  funext i
  obtain ⟨p, q, rfl⟩ : ∃ (p : Fin 50000) (q : Fin 16), i = ix2 p q := ⟨i 0, i 1, eq_ix2 i⟩
  rw [val_main_v41_apply, matProd_apply]
  refine Finset.sum_congr rfl fun k _ => ?_
  have el : lidx_main_v41 (ix2 p q) k = ix2 p k := funext fun a => Fin.ext (by match a with | ⟨0, _⟩ => rfl | ⟨1, _⟩ => rfl)
  have er : ridx_main_v41 (ix2 p q) k = ix2 k q := funext fun a => Fin.ext (by match a with | ⟨0, _⟩ => rfl | ⟨1, _⟩ => rfl)
  rw [el, er]

/-- The second aggregation is the shared one, of the second projection. -/
theorem second_aggregate :
    val_main_v61 (F := Ideal) x0 x1 x2 x3 x4 x5
      = aggregate16 (val_main_v41 (F := Ideal) x0 x1 x2 x3 x4 x5) (val_main_v9 (F := Ideal) x1) x1 x2 := rfl

/-- Scaling by the broadcast norm and adding the broadcast bias are the output layer of the second aggregate. -/
theorem output_layer :
    val_main_v67 (F := Ideal) x0 x1 x2 x3 x4 x5 x6
      = scaleShift (val_main_v61 (F := Ideal) x0 x1 x2 x3 x4 x5) (asColumn (val_main_v12 (F := Ideal) x2)) (asRow x6) := by
  funext i
  obtain ⟨p, q, rfl⟩ : ∃ (p : Fin 50000) (q : Fin 16), i = ix2 p q := ⟨i 0, i 1, eq_ix2 i⟩
  rw [scaleShift_apply, asColumn_apply, asRow_apply, val_main_v67_apply, val_main_v64_apply, val_main_v63_apply,
    val_main_v62_apply, val_main_v66_apply, val_main_v65_apply]
  have en : idx_main_v62 (idx_main_v63 (ix2 p q)) = ix1 p := funext fun a => Fin.ext (by match a with | ⟨0, _⟩ => rfl)
  have eb : idx_main_v65 (idx_main_v66 (ix2 p q)) = ix1 q := funext fun a => Fin.ext (by match a with | ⟨0, _⟩ => rfl)
  rw [en, eb]
  rfl

/-- The reference's result, as a function of its arguments, is the network. -/
theorem reference_is_network :
    val_main_v67 (F := Ideal) x0 x1 x2 x3 x4 x5 x6 = network x0 x1 x2 x3 x4 x5 x6 := by
  rw [output_layer, second_aggregate, second_projection, hidden_activation, first_aggregate, first_projection,
    norm_src, norm_dst]
  rfl

end Cert.ReferenceIdeal.RefValue

end
-- ==== Proof.lean ====
/-
  A two-layer graph convolution on 50000 nodes and 800000 edges: three tiled dense steps on the device, with the
  gather / scatter-add aggregation between them on the host, against the same network computed wholly on the host.

  Both programs compute, on the extended reals,

      out = (agg (max ((agg (x W1)) ν_dst + b1, 0) W2)) ν_dst + b2 ,   ν = rsqrt (max (degree, 1)),

  where `agg h` gathers the rows of `h` at the edge sources, scales them by the source norms and scatter-adds them at the
  edge destinations. The host operations around the dense steps are the same in the two programs, operation for
  operation. The device's three dense steps each handle 2000 rows per grid point; a matrix product, and a row-wise
  scale-shift-rectify, computed row tile by row tile is the same function of the whole arrays, a change of float format
  is the identity on the extended reals, and a sum of extended reals does not depend on its order — so no finiteness of
  the inputs is used: the precondition is never opened. The idealization rewrote no operation, so `preserves` is
  `True`.

  The pieces: the matrix product of a row tile read at an index (LibPlainDot), the column and row layouts of the norm and
  the bias (LibColumn), the three dense steps as whole-array functions for any entry contents (FirstProjection,
  HiddenLayer, OutputLayer), the shared host operations by name (Aggregation) and the network (Network), the device
  run with its result named (NamedRun) and followed through its six segments (DeviceValue), and the reference's stages
  read as the network (RefRead).
-/
import proofs.«102962_j19619410608308_1_alg».proof.Defs
import proofs.«102962_j19619410608308_1_alg».proof.Proof.Gen.Kernel
import proofs.«102962_j19619410608308_1_alg».proof.Proof.Gen.Kernel.Skeleton
import proofs.«102962_j19619410608308_1_alg».proof.Proof.Gen.Kernel.Launch
import proofs.«102962_j19619410608308_1_alg».proof.Proof.Gen.Kernel.Points
import proofs.«102962_j19619410608308_1_alg».proof.Proof.Gen.Kernel.Frame
import proofs.«102962_j19619410608308_1_alg».proof.Proof.Gen.KernelIdeal
import proofs.«102962_j19619410608308_1_alg».proof.Proof.Gen.KernelIdeal.Skeleton
import proofs.«102962_j19619410608308_1_alg».proof.Proof.Gen.KernelIdeal.Launch
import proofs.«102962_j19619410608308_1_alg».proof.Proof.Gen.KernelIdeal.Points
import proofs.«102962_j19619410608308_1_alg».proof.Proof.Gen.KernelIdeal.Frame
import proofs.«102962_j19619410608308_1_alg».proof.Proof.Gen.ReferenceIdeal
import proofs.«102962_j19619410608308_1_alg».proof.Proof.Gen.ReferenceIdeal.Run
import proofs.«102962_j19619410608308_1_alg».proof.Proof.Gen.ReferenceIdeal.Read
import proofs.«102962_j19619410608308_1_alg».proof.Proof.Gen.Pre_finite_inputs
import proofs.«102962_j19619410608308_1_alg».proof.Proof.NamedRun
import proofs.«102962_j19619410608308_1_alg».proof.Proof.DeviceValue
import proofs.«102962_j19619410608308_1_alg».proof.Proof.RefRead
import Idealize.ShloMosaic.Adequacy
import Idealize.ShloMosaic.Init

noncomputable section

namespace Cert.Proof

open Idealize.ShloMosaic Idealize.ShloMosaic.TcCoe Idealize.SL.Sem

/-- The device program as printed runs and leaves its arguments as launched. -/
theorem frame_kernel : Cert.frame_Kernel := fun m ρ _ => Cert.Kernel.Gen.frame m ρ

/-- The idealized device program runs and leaves its arguments as launched. -/
theorem frame_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the seven arguments both programs end with the network of those arguments in their
    result: the device by its six segments, the reference by its stages. -/
theorem algebraic : Cert.algebraic_KernelIdeal_ReferenceIdeal := by
  intro m ρ m' ρ' _ hagree
  refine ⟨fun c => Cert.Network.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.DeviceValue.result_is_network m ρ c), (h c).2⟩)
      (Cert.KernelIdeal.NamedRun.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v67_eq, Cert.ReferenceIdeal.RefValue.reference_is_network, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
